-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S32768x512 .f32) (main_arg1 : FVec F S512x512 .f32) (main_arg2 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .bf16⟩
  | .hbm, ⟨5, _⟩ => ⟨S1x512, .f32⟩
  | .hbm, ⟨6, _⟩ => ⟨S32768x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩

abbrev nBuf : Space → Nat
  | .hbm => 8
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S32768x512, .f32⟩
  | .hbm, ⟨5, _⟩ => ⟨S1x512, .f32⟩
  | .hbm, ⟨6, _⟩ => ⟨S32768x512, .f32⟩
  | .hbm, ⟨7, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.BlockEntry.lean ====
/-
  One entry of what the kernel's body stores.

  At a grid point the body holds a block `a` of 2048 rows of the batch, the whole 512 × 512 matrix `v` it was handed
  (the weights already transposed: `v (k, q)` is the weight of input `k` for feature `q`) and the bias as a single row
  `c` of 512 numbers. It narrows `a` to a shorter float format, multiplies it by `v` on the matrix unit into a tile of
  zeros, repeats the bias row down the 2048 rows, adds, and stores the sum.

  Read on the extended reals, narrowing a float changes nothing, a product into zeros is the plain sum of the
  products (zero is neutral for the addition of extended reals), and a row repeated downwards reads, at `(p, q)`,
  its entry `q`. So the stored entry at row `p` of the block and feature `q` is

      (∑ k < 512, a (p, k) · v (k, q)) + c (0, q).
-/
import proofs.«178987_j19198503813587_2_alg».proof.Proof.Gen.KernelIdeal.Skeleton
import proofs.«178987_j19198503813587_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The bias row repeated down the block's 2048 rows reads, at `(p, q)`, the row's entry `q`: the row's first axis
    has extent one, so it is read at 0 there, and its second axis is the block's second axis. -/
theorem bias_rows (c : FVec Ideal S1x512 .f32) (p : Fin 2048) (q : Fin 512) :
    broadcastTo S2048x512 c Facts₀.broadcasts_S1x512_S2048x512 (ix2 p q) = c (ix2 0 q) :=
  broadcastTo_apply c Facts₀.broadcasts_S1x512_S2048x512 (ix2 p q) (ix2 0 q) (fun a => by
    match a with
    | ⟨0, _⟩ => show (0 : Nat) = if (1 : Nat) = 1 then 0 else p.val; rw [if_pos rfl]
    | ⟨1, _⟩ => show q.val = if (512 : Nat) = 1 then 0 else q.val; rw [if_neg (by decide)])

/-- The block's product with the transposed weights, into the tile of zeros, at `(p, q)`: the inner product of the
    block's row `p` with the matrix's column `q`. -/
theorem product_entry (a : FVec Ideal S2048x512 .bf16) (v : FVec Ideal S512x512 .bf16) (p : Fin 2048) (q : Fin 512) :
    FloatOps.matmul dot_S2048x512_S512x512_S2048x512_1_0_0_1_n_n none a v (constant (F := Ideal) S2048x512 .f32 0x00000000#32) (ix2 p q)
      = ∑ k : Fin 512, a (ix2 p k) * v (ix2 k q) :=
  (Ideal.matmul_constant_zero_apply dot_S2048x512_S512x512_S2048x512_1_0_0_1_n_n none a v (ix2 p q)).trans
    (Cert.PlainDot.sum_eq dot_S2048x512_S512x512_S2048x512_1_0_0_1_n_n rfl rfl rfl rfl rfl rfl rfl rfl a v p q)

/-- THE STORED ENTRY at row `p` of the block and feature `q`. -/
theorem stored_entry (a : Vec Ideal S2048x512 .f32) (v : Vec Ideal S512x512 .bf16) (c : Vec Ideal S1x512 .f32)
    (p : Fin 2048) (q : Fin 512) :
    k0_pay1 (F := Ideal) a v c (ix2 p q) = (∑ k : Fin 512, a (ix2 p k) * v (ix2 k q)) + c (ix2 0 q) := by
  unfold k0_pay1
  rw [shapeCast_self, shapeCast_self]
  show FloatOps.matmul dot_S2048x512_S512x512_S2048x512_1_0_0_1_n_n none (truncf .bf16 a Facts₀.bitsLt_bf16_f32) v
        (constant (F := Ideal) S2048x512 .f32 0x00000000#32) (ix2 p q)
      + broadcastTo S2048x512 c Facts₀.broadcasts_S1x512_S2048x512 (ix2 p q) = _
  rw [product_entry, bias_rows]
  rfl

end Cert.KernelIdeal.Block

end
-- ==== Proof.Staged.lean ====
/-
  What the kernel's region is handed besides the batch.

  Before the region runs, the program transposes the weight matrix and narrows it to a shorter float format, and it
  re-views the bias vector of 512 numbers as a single row of shape [1, 512]. The region's second operand is that
  matrix and its third that row.

  On the extended reals narrowing changes nothing, so the matrix at `(k, q)` is the weight matrix at `(q, k)`; and a
  vector re-viewed as one row keeps its entries in order, so the row at `(0, q)` is the bias at `q`.
-/
import proofs.«178987_j19198503813587_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The matrix the region is handed is the weight matrix transposed, then narrowed. -/
theorem weights_term (c : Dev nD) :
    (V m c main_v1 : S512x512.Idx → EReal)
      = truncf (F := Ideal) .bf16 (transpose S512x512 [1, 0] (m ((c : Thread nD τ).loc main_arg1) : S512x512.Idx → EReal)
          Facts₀.transposes_S512x512_S512x512_1_0) Facts₀.bitsLt_bf16_f32 := by
  dsimp only [Gen.V, Gen.hostOps0]
  after_results

/-- Its entry at `(k, q)` is the weight matrix's at `(q, k)`. -/
theorem weights_entry (c : Dev nD) (k q : Fin 512) :
    (V m c main_v1 : S512x512.Idx → EReal) (ix2 k q)
      = (m ((c : Thread nD τ).loc main_arg1) : S512x512.Idx → EReal) (ix2 q k) := by
  rw [weights_term]
  show transpose S512x512 [1, 0] (m ((c : Thread nD τ).loc main_arg1) : S512x512.Idx → EReal)
      Facts₀.transposes_S512x512_S512x512_1_0 (ix2 k q) = _
  exact transpose_apply [1, 0] _ Facts₀.transposes_S512x512_S512x512_1_0 (ix2 k q) (ix2 q k) (fun b => match b with
    | ⟨0, _⟩ => rfl
    | ⟨1, _⟩ => rfl)

/-- The row the region is handed is the bias vector re-viewed with a leading axis of extent one. -/
theorem bias_term (c : Dev nD) :
    (V m c main_v2 : S1x512.Idx → EReal)
      = shapeCast S1x512 (m ((c : Thread nD τ).loc main_arg2) : S512.Idx → EReal) Facts₀.shapeCasts_S512_S1x512 := by
  dsimp only [Gen.V, Gen.hostOps0]
  after_results
  rfl

/-- Its entry at `(0, q)` is the bias at `q`: both sit at position `q` when the entries are listed row by row. -/
theorem bias_entry (c : Dev nD) (q : Fin 512) :
    (V m c main_v2 : S1x512.Idx → EReal) (ix2 0 q)
      = (m ((c : Thread nD τ).loc main_arg2) : S512.Idx → EReal) (ix1 q) := by
  rw [bias_term]
  exact shapeCast_apply _ Facts₀.shapeCasts_S512_S1x512 (ix2 0 q) (ix1 q) (by
    rw [Shape.rowMajor_val_one, Shape.rowMajor_val_two]
    show q.val = 0 * 512 + q.val
    omega)

end Cert.KernelIdeal.Staged

end
-- ==== Proof.Linear.lean ====
/-
  A linear layer as one function of its three arrays.

  For a batch `x` of 32768 rows of 512 numbers, a weight matrix `w` of 512 rows (one per output feature) of 512
  numbers each, and a bias `b` of 512 numbers, the layer's entry at row `r` and feature `q` is

      (∑ k < 512, x (r, k) · w (q, k)) + b q :

  the inner product of row `r` of the batch with row `q` of the weights, plus that feature's bias. This is
  `x · wᵀ + b` written entry by entry. The numbers are extended reals. The definition is one finite sum of
  products and one addition, and nothing built on it regroups a sum, distributes a factor or cancels a term, so no
  entry is ever asked to be finite.
-/
import Idealize.ShloMosaic.PureOps.Ideal
import Idealize.ShloMosaic.Lib.ValueIdx

noncomputable section

open scoped BigOperators

namespace Cert.Linear

open Idealize.ShloMosaic Idealize.ShloMosaic.ValueIdx

/-- `x · wᵀ + b`, entry by entry: at `(r, q)` the inner product of row `r` of `x` with row `q` of `w`, plus `b q`. -/
def affine (x : (⟨2, ![32768, 512]⟩ : Shape).Idx → EReal) (w : (⟨2, ![512, 512]⟩ : Shape).Idx → EReal)
    (b : (⟨1, ![512]⟩ : Shape).Idx → EReal) : (⟨2, ![32768, 512]⟩ : Shape).Idx → EReal :=
  fun i => (∑ k : Fin 512, x (ix2 (i 0) k) * w (ix2 (i 1) k)) + b (ix1 (i 1))

/-- The same at an index given by its two coordinates. -/
theorem affine_apply (x : (⟨2, ![32768, 512]⟩ : Shape).Idx → EReal) (w : (⟨2, ![512, 512]⟩ : Shape).Idx → EReal)
    (b : (⟨1, ![512]⟩ : Shape).Idx → EReal) (r : Fin 32768) (q : Fin 512) :
    affine x w b (ix2 r q) = (∑ k : Fin 512, x (ix2 r k) * w (ix2 q k)) + b (ix1 q) := rfl

end Cert.Linear

end
-- ==== Proof.WholeArray.lean ====
/-
  From the sixteen blocks to the whole result.

  The kernel runs its body at sixteen grid points. At point `t` it is handed rows `2048·t` to `2048·t + 2047` of the
  batch, the whole transposed weight matrix and the whole bias row (the same two at every point), and it writes back
  rows `2048·t` to `2048·t + 2047` of the result. Row `p` of block `t` is row `2048·t + p` of the array, on the batch's
  side and on the result's alike, so what point `t` writes back at `(p, q)`,

      (∑ k, batch (2048·t + p, k) · weights (q, k)) + bias q,

  is the linear layer's entry at `(2048·t + p, q)`: point `t` writes block `t` of the linear layer. Every row `r` of
  the result lies in the block of the point `r / 2048`, so the blocks cover the array, and the array ends holding the
  linear layer of the three arguments.
-/
import proofs.«178987_j19198503813587_2_alg».proof.Proof.Gen.KernelIdeal.Value
import proofs.«178987_j19198503813587_2_alg».proof.Proof.BlockEntry
import proofs.«178987_j19198503813587_2_alg».proof.Proof.Staged
import proofs.«178987_j19198503813587_2_alg».proof.Proof.Linear

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The batch the program was launched with, on core `c`. -/
abbrev batch (c : Dev nD) : S32768x512.Idx → EReal := m ((c : Thread nD τ).loc main_arg0)
/-- The weight matrix it was launched with. -/
abbrev weights (c : Dev nD) : S512x512.Idx → EReal := m ((c : Thread nD τ).loc main_arg1)
/-- The bias it was launched with. -/
abbrev bias (c : Dev nD) : S512.Idx → EReal := m ((c : Thread nD τ).loc main_arg2)

/-- The linear layer of those three arrays. -/
abbrev layer (c : Dev nD) : S32768x512.Idx → EReal := Cert.Linear.affine (batch m c) (weights m c) (bias m c)

/-- Every access of the body starts at the corner of its buffer. -/
theorem origin : (![0, 0] : Fin 2 → Nat) = fun _ => 0 := funext fun a => by fin_cases a <;> rfl

/-- Where each operand's block sits at point `t`, decided over the sixteen points: the batch's and the result's block
    is number `t` down the rows, the weight matrix's and the bias row's is always the first (and only) one. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ t.val < 16 :=
  (by decide +kernel : ∀ t : Fin grid0.N, _)

/-- WHAT POINT `t` WRITES BACK is block `t` of the linear layer. -/
theorem flushed_eq (c : Dev nD) (t : Fin cfg0.N) :
    (dats m 0 c).flushed 3 t = ((cfg0.win 3).blk t).view.read (Elt Ideal) (layer m c) := by
  rw [Value.flushed3]
  unfold out0_3
  rw [View.canon_unit_zero origin]
  simp only [View.ld_unit_zero (S := S2048x512) origin, View.ld_unit_zero (S := S512x512) origin,
    View.ld_unit_zero (S := S1x512) origin]
  obtain ⟨e00, e01, e10, e11, e20, e21, e30, e31, ht⟩ := block_indices t
  funext j
  obtain ⟨p, q, rfl⟩ : ∃ (p : Fin 2048) (q : Fin 512), j = ix2 p q := ⟨j 0, j 1, eq_ix2 j⟩
  have hp : p.val < 2048 := p.isLt
  have hrow : t.val * 2048 + p.val < 32768 := by omega
  -- row `p` of block `t` of the result is row `2048·t + p` of the array
  have hout : ((cfg0.win 3).blk t).view.emb (ix2 p q) = (ix2 (⟨t.val * 2048 + p.val, hrow⟩ : Fin 32768) q : S32768x512.Idx) :=
    funext fun a => Fin.ext (by
      match a with
      | ⟨0, _⟩ => show win0_3.index t (0 : Fin 2) * 2048 + 1 * p.val = t.val * 2048 + p.val; omega
      | ⟨1, _⟩ => show win0_3.index t (1 : Fin 2) * 512 + 1 * q.val = q.val; omega)
  -- the batch's block at `(p, k)` is the batch at `(2048·t + p, k)`
  have hx : ∀ k : Fin 512, iblk m c 0 t (ix2 p k) = batch m c (ix2 (⟨t.val * 2048 + p.val, hrow⟩ : Fin 32768) k) := fun k => by
    show V m c main_arg0 (((cfg0.win 0).blk t).view.emb (ix2 p k)) = _
    rw [V_main_arg0]
    refine congrArg _ (funext fun a => Fin.ext ?_)
    match a with
    | ⟨0, _⟩ => show win0_0.index t (0 : Fin 2) * 2048 + 1 * p.val = t.val * 2048 + p.val; omega
    | ⟨1, _⟩ => show win0_0.index t (1 : Fin 2) * 512 + 1 * k.val = k.val; omega
  -- the matrix's one block is the whole matrix: at `(k, q)` the weights at `(q, k)`
  have hw : ∀ k : Fin 512, iblk m c 1 t (ix2 k q) = weights m c (ix2 q k) := fun k => by
    refine Eq.trans ?_ (Staged.weights_entry m c k q)
    show V m c main_v1 (((cfg0.win 1).blk t).view.emb (ix2 k q)) = V m c main_v1 (ix2 k q)
    refine congrArg _ (funext fun a => Fin.ext ?_)
    match a with
    | ⟨0, _⟩ => show win0_1.index t (0 : Fin 2) * 512 + 1 * k.val = k.val; omega
    | ⟨1, _⟩ => show win0_1.index t (1 : Fin 2) * 512 + 1 * q.val = q.val; omega
  -- the bias row's one block is the whole row: at `(0, q)` the bias at `q`
  have hb : iblk m c 2 t (ix2 0 q) = bias m c (ix1 q) := by
    refine Eq.trans ?_ (Staged.bias_entry m c q)
    show V m c main_v2 (((cfg0.win 2).blk t).view.emb (ix2 0 q)) = V m c main_v2 (ix2 0 q)
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * q.val = q.val; omega
  show k0_pay1 (F := Ideal) (iblk m c 0 t) (iblk m c 1 t) (iblk m c 2 t) (ix2 p q)
      = layer m c (((cfg0.win 3).blk t).view.emb (ix2 p q))
  refine (Block.stored_entry (iblk m c 0 t) (iblk m c 1 t) (iblk m c 2 t) p q).trans ?_
  refine Eq.trans ?_ (congrArg (layer m c) hout).symm
  refine Eq.trans ?_ (Cert.Linear.affine_apply (batch m c) (weights m c) (bias m c) ⟨t.val * 2048 + p.val, hrow⟩ q).symm
  rw [hb]
  exact congrArg (· + _) (Finset.sum_congr rfl fun k _ => by rw [hx k, hw k])

/-- An index of the result is in point `t`'s block iff each coordinate is in the block's range on its axis. -/
theorem mem_block (t : Fin cfg0.N) (i : S32768x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v3).slice (win0_3.rect t)).set ↔ _
  rw [View.set_slice_whole, Rect.mem_set_unit]
  exact Iff.rfl

/-- THE BLOCKS COVER THE RESULT: row `r` lies in the block of the point `r / 2048`, and every point writes back. -/
theorem covered (i : S32768x512.Idx) :
    ∃ t : Fin cfg0.N, (cfg0.win 3).flush t = true ∧ i ∈ ((cfg0.win 3).blk t).view.set := by
  have hi0 : (i 0).val < 32768 := (i 0).isLt
  have hi1 : (i 1).val < 512 := (i 1).isLt
  have hN : cfg0.N = 16 := N_0
  have hlt : (i 0).val / 2048 < cfg0.N := by rw [hN]; omega
  obtain ⟨-, -, -, -, -, -, e30, e31, -⟩ := block_indices ⟨(i 0).val / 2048, hlt⟩
  have e30' : win0_3.index ⟨(i 0).val / 2048, hlt⟩ (0 : Fin 2) = (i 0).val / 2048 := e30
  refine ⟨⟨(i 0).val / 2048, hlt⟩, flush0_3 _, ?_⟩
  rw [mem_block]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    omega
  | ⟨1, _⟩ =>
    show win0_3.index ⟨(i 0).val / 2048, hlt⟩ (1 : Fin 2) * 512 ≤ (i 1).val
      ∧ (i 1).val < win0_3.index ⟨(i 0).val / 2048, hlt⟩ (1 : Fin 2) * 512 + 512
    omega

/-- THE RESULT ARRAY after the run is the linear layer of the three arguments. -/
theorem final (c : Dev nD) : (dats m 0 c).arrAt 3 cfg0.N = layer m c :=
  (dats m 0 c).arrAt_eq_of_cover 3 (layer m c) (fun t _ => flushed_eq m c t) covered

/-- THE KERNEL'S RUN: every weakly fair execution terminates with the result at the linear layer of the arguments,
    the arguments unchanged. -/
theorem run : θ_run defs (onTc (τ := τ) (main (F := Ideal))) ⟨m, fun _ => 0, ρ⟩ fun r => ∀ c : Dev nD,
      r.2.mem ((c : Thread nD τ).loc main_v3) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceLinear.lean ====
/-
  The reference computes the linear layer.

  The reference transposes the weights, contracts the batch's second axis against the transposed matrix's first,
  places the bias as a row, repeats the row down all 32768 rows and adds. Read one operation at a time at an index
  `(r, q)`: the contraction is the sum over `k` of `x (r, k)` times the transposed matrix at `(k, q)`; the
  transposed matrix at `(k, q)` is the weight matrix at `(q, k)`; the repeated row at `(r, q)` is the row at
  `(0, q)`, which is the bias at `q`. That is `(∑ k, x (r, k) · w (q, k)) + b q`, the linear layer's entry.
-/
import proofs.«178987_j19198503813587_2_alg».proof.Proof.Gen.ReferenceIdeal.Read
import proofs.«178987_j19198503813587_2_alg».proof.Proof.Linear

noncomputable section

open scoped BigOperators

namespace Cert.ReferenceIdeal.RefLinear

open Cert.ReferenceIdeal Cert.ReferenceIdeal.Read Idealize.ShloMosaic Idealize.ShloMosaic.ValueIdx

/-- The batch is read, for the contraction at `i` and `k`, at `(i 0, k)`. -/
theorem batch_index (i : S32768x512.Idx) (k : Fin 512) : lidx_main_v1 i k = ix2 (i 0) k :=
  funext fun a => Fin.ext (by match a with | ⟨0, _⟩ => rfl | ⟨1, _⟩ => rfl)

/-- The weights are read, through the transposition, at `(i 1, k)`: the transposed matrix at `(k, i 1)`. -/
theorem weight_index (i : S32768x512.Idx) (k : Fin 512) : idx_main_v0 (ridx_main_v1 i k) = ix2 (i 1) k :=
  funext fun a => Fin.ext (by match a with | ⟨0, _⟩ => rfl | ⟨1, _⟩ => rfl)

/-- The bias is read, through the row and its repetition, at `i 1`. -/
theorem bias_index (i : S32768x512.Idx) : idx_main_v2 (idx_main_v3 i) = ix1 (i 1) :=
  funext fun a => Fin.ext (by match a with | ⟨0, _⟩ => rfl)

/-- THE REFERENCE'S RESULT is the linear layer of its three arguments. -/
theorem result_eq (x : (⟨S32768x512, .f32⟩ : BufTy).Contents (Elt Ideal)) (w : (⟨S512x512, .f32⟩ : BufTy).Contents (Elt Ideal))
    (b : (⟨S512, .f32⟩ : BufTy).Contents (Elt Ideal)) :
    val_main_v4 (F := Ideal) x w b = Cert.Linear.affine x w b := by
  funext i
  rw [val_main_v4_apply, val_main_v1_apply, val_main_v3_apply, val_main_v2_apply]
  simp only [val_main_v0_apply, batch_index, weight_index, bias_index]
  rfl

end Cert.ReferenceIdeal.RefLinear

end
-- ==== Proof.lean ====
/-
  A linear layer `x · wᵀ + b` computed in sixteen blocks on the matrix unit, against the same layer computed whole.

  The batch `x` has 32768 rows of 512 numbers, the weight matrix `w` has one row of 512 numbers per output feature,
  the bias `b` one number per feature. Both programs compute, at row `r` and feature `q`,

      (∑ k < 512, x (r, k) · w (q, k)) + b q        (`Cert.Linear.affine`).

  THE KERNEL transposes and narrows the weights once, views the bias as a row, and then, for each of sixteen blocks of
  2048 rows of the batch, narrows the block, multiplies it by the transposed weights into a tile of zeros, adds the
  bias row to every row and writes the 2048 rows of the result back. On the extended reals narrowing a float is the
  identity and a product into zeros is the plain sum of products, so a block's entry at `(p, q)` is the inner product
  of the block's row `p` with the weights' row `q`, plus `b q` (`Block.stored_entry`, over `Staged.weights_entry` and
  `Staged.bias_entry` for the two operands prepared before the blocks run); row `p` of block `t` is row `2048·t + p` of
  the array, and the sixteen blocks cover the 32768 rows, so the result array is the layer (`Whole.run`).

  THE REFERENCE transposes the weights, contracts the batch against them in one product, repeats the bias down the
  rows and adds; read at an index, one operation at a time, that is the same expression (`RefLinear.result_eq`).

  The two sides are the same sum of the same products in the same order followed by the same addition: no sum is
  regrouped and no factor moved, so the equality holds at every extended real and the inputs' finiteness is not used.
  The idealized kernel is the kernel's own text read on the extended reals (nothing was rewritten), so the fourth
  conjunct asks nothing; and each program's run, with its result dropped, is its frame.
-/
import proofs.«178987_j19198503813587_2_alg».proof.Defs
import proofs.«178987_j19198503813587_2_alg».proof.Proof.Gen.Kernel
import proofs.«178987_j19198503813587_2_alg».proof.Proof.Gen.Kernel.Skeleton
import proofs.«178987_j19198503813587_2_alg».proof.Proof.Gen.Kernel.Launch
import proofs.«178987_j19198503813587_2_alg».proof.Proof.Gen.Kernel.Points
import proofs.«178987_j19198503813587_2_alg».proof.Proof.Gen.Kernel.Frame
import proofs.«178987_j19198503813587_2_alg».proof.Proof.Gen.KernelIdeal
import proofs.«178987_j19198503813587_2_alg».proof.Proof.Gen.KernelIdeal.Skeleton
import proofs.«178987_j19198503813587_2_alg».proof.Proof.Gen.KernelIdeal.Launch
import proofs.«178987_j19198503813587_2_alg».proof.Proof.Gen.KernelIdeal.Points
import proofs.«178987_j19198503813587_2_alg».proof.Proof.Gen.KernelIdeal.Frame
import proofs.«178987_j19198503813587_2_alg».proof.Proof.Gen.ReferenceIdeal
import proofs.«178987_j19198503813587_2_alg».proof.Proof.Gen.Pre_finite_inputs
import proofs.«178987_j19198503813587_2_alg».proof.Proof.Gen.KernelIdeal.Value
import proofs.«178987_j19198503813587_2_alg».proof.Proof.Gen.ReferenceIdeal.Run
import proofs.«178987_j19198503813587_2_alg».proof.Proof.Gen.ReferenceIdeal.Read
import proofs.«178987_j19198503813587_2_alg».proof.Proof.WholeArray
import proofs.«178987_j19198503813587_2_alg».proof.Proof.ReferenceLinear
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel's text was rewritten to read it on the extended reals: there is nothing to preserve. -/
theorem preserves : Cert.preserves_Kernel_KernelIdeal := trivial

/-- From memories that agree on the three arguments both programs end with the linear layer of those arguments in
    their result: the kernel block by block (`Whole.run`), the reference in one product (`RefLinear.result_eq`). -/
theorem algebraic : Cert.algebraic_KernelIdeal_ReferenceIdeal := by
  intro m ρ m' ρ' _ hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefLinear.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
